-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S1024x1024 : Shape := ⟨2, ![1024, 1024]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S1024x1024 .f32) (main_arg5 : FVec F S4096 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  main_v28

def fn {F : FTy → Type} [FloatOps F] (main_arg0 : FVec F S8192x4096 .f32) (main_arg1 : FVec F S1024x1024 .f32) (main_arg2 : FVec F S1024x1024 .f32) (main_arg3 : FVec F S1024x1024 .f32) (main_arg4 : FVec F S1024x1024 .f32) (main_arg5 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_v13 main_v16
-- ==== Kernel.lean ====
abbrev S8192x4096 : Shape := ⟨2, ![8192, 4096]⟩
abbrev S1024x1024 : Shape := ⟨2, ![1024, 1024]⟩
abbrev S4096 : Shape := ⟨1, ![4096]⟩
abbrev S1x4096 : Shape := ⟨2, ![1, 4096]⟩
abbrev S256x4096 : Shape := ⟨2, ![256, 4096]⟩
abbrev S256x1024 : Shape := ⟨2, ![256, 1024]⟩

abbrev nBuf : Space → Nat
  | .hbm => 16
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S4096, .f32⟩
  | .hbm, ⟨6, _⟩ => ⟨S1024x1024, .f32⟩
  | .hbm, ⟨7, _⟩ => ⟨S1024x1024, .bf16⟩
  | .hbm, ⟨8, _⟩ => ⟨S1024x1024, .f32⟩
  | .hbm, ⟨9, _⟩ => ⟨S1024x1024, .bf16⟩
  | .hbm, ⟨10, _⟩ => ⟨S1024x1024, .f32⟩
  | .hbm, ⟨11, _⟩ => ⟨S1024x1024, .bf16⟩
  | .hbm, ⟨12, _⟩ => ⟨S1024x1024, .f32⟩
  | .hbm, ⟨13, _⟩ => ⟨S1024x1024, .bf16⟩
  | .hbm, ⟨14, _⟩ => ⟨S1x4096, .f32⟩
  | .hbm, ⟨15, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1x4096, .f32⟩
  | .local _ .vmem, ⟨7, _⟩ => ⟨S256x4096, .f32⟩
  | .local _ .vmem, ⟨8, _⟩ => ⟨S256x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  transposes_S1024x1024_S1024x1024_1_0 : S1024x1024.Transposes [1, 0] S1024x1024
  bitsLt_bf16_f32 : FTy.bits .bf16 < FTy.bits .f32
  shapeCasts_S4096_S1x4096 : S4096.ShapeCasts S1x4096
  inb_S256x4096_S256x4096_0_0 : ∀ a, (![0, 0] : Fin 2 → Nat) a + S256x4096.size a ≤ S256x4096.size a
  h_S256x4096 : 0 < S256x4096.numel
  slices_S256x4096_o0_0_S256x1024 : S256x4096.Slices ![0, 0] S256x1024
  slices_S256x4096_o0_1024_S256x1024 : S256x4096.Slices ![0, 1024] S256x1024
  slices_S256x4096_o0_2048_S256x1024 : S256x4096.Slices ![0, 2048] S256x1024
  slices_S256x4096_o0_3072_S256x1024 : S256x4096.Slices ![0, 3072] S256x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  concatenates_S256x1024_S256x1024_S256x1024_S256x1024_S256x4096_d1 : Shape.Concatenates [S256x1024, S256x1024, S256x1024, S256x1024] S256x4096 1
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .f32 = 32 ∨ (Rect.block (s := S8192x4096) S256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x4096.size a ≤ S8192x4096.size a
  hwx0_6 : ∀ i : grid0.Coords, EltTy.bits .f32 = 32 ∨ (Rect.block (s := S8192x4096) S256x4096.size (cc0_transform_6 i) (hinb0_6 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S256x4096.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S1024x1024 : Shape := ⟨2, ![1024, 1024]⟩
abbrev S4096 : Shape := ⟨1, ![4096]⟩
abbrev S8192x1024 : Shape := ⟨2, ![8192, 1024]⟩
abbrev S1024x4096 : Shape := ⟨2, ![1024, 4096]⟩
abbrev S4096x4096 : Shape := ⟨2, ![4096, 4096]⟩
abbrev S1x4096 : Shape := ⟨2, ![1, 4096]⟩

abbrev nBuf : Space → Nat
  | .hbm => 25
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S4096, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S1024x4096, .f32⟩
  | .hbm, ⟨14, _⟩ => ⟨S1024x1024, .f32⟩
  | .hbm, ⟨15, _⟩ => ⟨S1024x4096, .f32⟩
  | .hbm, ⟨16, _⟩ => ⟨S1024x1024, .f32⟩
  | .hbm, ⟨17, _⟩ => ⟨S1024x4096, .f32⟩
  | .hbm, ⟨18, _⟩ => ⟨S1024x1024, .f32⟩
  | .hbm, ⟨19, _⟩ => ⟨S1024x4096, .f32⟩
  | .hbm, ⟨20, _⟩ => ⟨S4096x4096, .f32⟩
  | .hbm, ⟨21, _⟩ => ⟨S8192x4096, .f32⟩
  | .hbm, ⟨22, _⟩ => ⟨S1x4096, .f32⟩
  | .hbm, ⟨23, _⟩ => ⟨S8192x4096, .f32⟩
  | .hbm, ⟨24, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]

class Facts₀ : Prop where
  slices_S8192x4096_S8192x1024_0_0 : S8192x4096.Slices ![0, 0] S8192x1024
  slices_S8192x4096_S8192x1024_0_1024 : S8192x4096.Slices ![0, 1024] S8192x1024
  slices_S8192x4096_S8192x1024_0_2048 : S8192x4096.Slices ![0, 2048] S8192x1024
  slices_S8192x4096_S8192x1024_0_3072 : S8192x4096.Slices ![0, 3072] S8192x1024
  concatenates_S1024x1024_S1024x1024_S1024x1024_S1024x1024_S1024x4096_d1 : Shape.Concatenates [S1024x1024, S1024x1024, S1024x1024, S1024x1024] S1024x4096 1
  concatenates_S1024x4096_S1024x4096_S1024x4096_S1024x4096_S4096x4096_d0 : Shape.Concatenates [S1024x4096, S1024x4096, S1024x4096, S1024x4096] S4096x4096 0
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.LibIdealSums.lean ====
/-
  Sums and quotients of extended reals, as the ideal reading of a float program meets them: the coercion from the
  reals through finite sums, a product with a reciprocal against a quotient, a sum over a zero-padded index range,
  a sum regrouped or split, and the logistic function written out. Nothing here mentions a program.
-/
import Mathlib.Algebra.BigOperators.Fin
import Mathlib.Data.EReal.Inv
import Idealize.ShloMosaic.PureOps.Ideal
import Idealize.ShloMosaic.PureOps.Ideal.Laws
import Idealize.ShloMosaic.Lib.ValueIdx

open scoped BigOperators

namespace Cert.Lib.IdealSums

open Idealize.ShloMosaic

/-! ## The coercion of the reals through finite sums and products -/

/-- The extended real of a finite sum of reals is the sum of their extended reals: the coercion is additive,
    by induction on the index set. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The same over a whole finite type. -/
theorem coe_sum_univ {ι : Type*} [Fintype ι] (f : ι → ℝ) :
    ((∑ i, f i : ℝ) : EReal) = ∑ i, (f i : EReal) :=
  coe_sum Finset.univ f

/-- The extended real of a finite sum of products of reals is the sum of the products of their extended reals:
    the coercion is additive and multiplicative. -/
theorem coe_sum_mul {ι : Type*} (s : Finset ι) (f g : ι → ℝ) :
    ((∑ i ∈ s, f i * g i : ℝ) : EReal) = ∑ i ∈ s, (f i : EReal) * (g i : EReal) := by
  rw [coe_sum]
  exact Finset.sum_congr rfl fun i _ => EReal.coe_mul _ _

/-- A real times a finite sum of reals, in the extended reals: the product distributes before or after the coercion. -/
theorem coe_mul_sum {ι : Type*} (s : Finset ι) (c : ℝ) (f : ι → ℝ) :
    (c : EReal) * ∑ i ∈ s, (f i : EReal) = ∑ i ∈ s, (c : EReal) * (f i : EReal) := by
  rw [← coe_sum, ← EReal.coe_mul, Finset.mul_sum, coe_sum]
  exact Finset.sum_congr rfl fun i _ => EReal.coe_mul _ _

/-- A finite sum of reals is neither infinity in the extended reals. -/
theorem sum_coe_ne_top {ι : Type*} (s : Finset ι) (f : ι → ℝ) : ∑ i ∈ s, (f i : EReal) ≠ ⊤ := by
  rw [← coe_sum]; exact EReal.coe_ne_top _
theorem sum_coe_ne_bot {ι : Type*} (s : Finset ι) (f : ι → ℝ) : ∑ i ∈ s, (f i : EReal) ≠ ⊥ := by
  rw [← coe_sum]; exact EReal.coe_ne_bot _

/-- A nonempty finite sum of positive reals is positive in the extended reals (a softmax denominator: a sum of
    exponentials), hence not zero. -/
theorem sum_coe_pos {ι : Type*} (s : Finset ι) (hs : s.Nonempty) (f : ι → ℝ) (hf : ∀ i ∈ s, 0 < f i) :
    (0 : EReal) < ∑ i ∈ s, (f i : EReal) := by
  rw [← coe_sum]
  exact_mod_cast Finset.sum_pos hf hs
theorem sum_coe_ne_zero {ι : Type*} (s : Finset ι) (hs : s.Nonempty) (f : ι → ℝ) (hf : ∀ i ∈ s, 0 < f i) :
    ∑ i ∈ s, (f i : EReal) ≠ 0 :=
  (sum_coe_pos s hs f hf).ne'

/-! ## A product with the reciprocal against the quotient -/

/-- Multiplying by the reciprocal is dividing, whenever the divisor or the dividend is not zero. Off zero the
    quotient is the product with the inverse and `1 · s⁻¹ = s⁻¹`; by zero the reciprocal is `+∞` and `p · +∞` is the
    infinity of `p`'s sign, which is the quotient's value there. (At `p = s = 0` the two differ: `0 · +∞ = 0` but
    `0 / 0` is `-∞`.) -/
theorem mul_div_one {p s : EReal} (h : s ≠ 0 ∨ p ≠ 0) : p * Ideal.div 1 s = Ideal.div p s := by
  by_cases hs : s = 0
  · subst hs
    have hp : p ≠ 0 := h.resolve_left fun h0 => h0 rfl
    unfold Ideal.div
    rw [if_pos rfl, if_pos rfl, if_pos (show (0 : EReal) < 1 from zero_lt_one)]
    by_cases h0 : 0 < p
    · rw [if_pos h0, EReal.mul_top_of_pos h0]
    · rw [if_neg h0, EReal.mul_top_of_neg (lt_of_le_of_ne (not_lt.mp h0) hp)]
  · unfold Ideal.div
    rw [if_neg hs, if_neg hs, one_mul]

/-- The case a normalisation uses: the divisor is not zero. -/
theorem mul_div_one_of_ne_zero (p : EReal) {s : EReal} (hs : s ≠ 0) : p * Ideal.div 1 s = Ideal.div p s :=
  mul_div_one (Or.inl hs)

/-- The same in the float operations' spelling at the ideal values: a kernel's product with a reciprocal is the
    host's quotient. -/
theorem mulf_divf_one {φ : FTy} (p s : Ideal φ) (hs : s ≠ 0) :
    FloatOps.mulf p (FloatOps.divf (1 : Ideal φ) s) = FloatOps.hostDivf p s :=
  mul_div_one_of_ne_zero p hs
theorem mulf_divf_one_f32 (p s : Ideal .f32) (hs : s ≠ 0) :
    FloatOps.mulf p (FloatOps.divf (1 : Ideal .f32) s) = FloatOps.hostDivf p s :=
  mulf_divf_one p s hs
/-- With the reciprocal taken by the kernel's reciprocal operation. -/
theorem mulf_reciprocal {φ : FTy} (approx : Bool) (p s : Ideal φ) (hs : s ≠ 0) :
    FloatOps.mulf p (FloatOps.reciprocal approx s) = FloatOps.hostDivf p s :=
  mul_div_one_of_ne_zero p hs

/-! ## Sums over a zero-padded range -/

/-- A sum over `N` indices of a function that vanishes from `n` on is the sum over the first `n`: the tail adds zeros. -/
theorem sum_fin_pad {M : Type*} [AddCommMonoid M] {n N : ℕ} (hnN : n ≤ N) (f : Fin N → M)
    (h : ∀ k : Fin N, n ≤ k.val → f k = 0) :
    ∑ k : Fin N, f k = ∑ k : Fin n, f (Fin.castLE hnN k) := by
  obtain ⟨m, rfl⟩ := Nat.exists_eq_add_of_le hnN
  rw [Fin.sum_univ_add, Fintype.sum_eq_zero _ (fun j : Fin m => h (Fin.natAdd n j) (Nat.le_add_right n j.val)), add_zero]
  rfl

/-- A 128-wide sum whose last 28 terms are zero is the 100-wide sum (a table padded with zero columns adds nothing). -/
theorem sum_fin128_pad {M : Type*} [AddCommMonoid M] (f : Fin 128 → M) (h : ∀ k : Fin 128, 100 ≤ k.val → f k = 0) :
    ∑ k : Fin 128, f k = ∑ k : Fin 100, f (Fin.castLE (by decide) k) :=
  sum_fin_pad (by decide) f h

/-! ## Regrouping and splitting -/

/-- Inside a sum a triple product may be regrouped: the multiplication of extended reals is commutative and
    associative with no finiteness condition. -/
theorem sum_mul_right_comm {ι : Type*} (s : Finset ι) (h a g : ι → EReal) :
    ∑ d ∈ s, (h d * a d) * g d = ∑ d ∈ s, (h d * g d) * a d :=
  Finset.sum_congr rfl fun d _ => mul_right_comm (h d) (a d) (g d)
theorem sum_univ_mul_right_comm {ι : Type*} [Fintype ι] (h a g : ι → EReal) :
    ∑ d, (h d * a d) * g d = ∑ d, (h d * g d) * a d :=
  sum_mul_right_comm Finset.univ h a g

/-- A sum over `m + n` indices is the sum over the first `m` plus the sum over the last `n`. -/
theorem sum_fin_split {M : Type*} [AddCommMonoid M] {m n N : ℕ} (hN : N = m + n) (f : Fin N → M) :
    ∑ k : Fin N, f k
      = ∑ k : Fin m, f ⟨k.val, by omega⟩ + ∑ k : Fin n, f ⟨m + k.val, by omega⟩ := by
  subst hN
  exact Fin.sum_univ_add f

/-- A 200-wide sum is the sum of its two 100-wide halves (two 100-wide inputs side by side against one 200-wide weight). -/
theorem sum_fin200_split {M : Type*} [AddCommMonoid M] (f : Fin 200 → M) :
    ∑ k : Fin 200, f k = ∑ k : Fin 100, f ⟨k.val, by omega⟩ + ∑ k : Fin 100, f ⟨100 + k.val, by omega⟩ :=
  sum_fin_split (m := 100) (n := 100) rfl f

/-! ## The logistic function written out -/

/-- The logistic function is `1 / (1 + e^(-x))`, by definition, at every extended real (`-∞ ↦ 0`, `+∞ ↦ 1`). -/
theorem logistic_eq (x : EReal) : Ideal.logistic x = Ideal.div 1 (1 + Ideal.exp (-x)) := rfl

/-- At the ideal values the one-operation logistic is the host's expansion of it: negate, exponential, add one, divide. -/
theorem logistic_eq_host {φ : FTy} (x : Ideal φ) :
    FloatOps.logistic x
      = FloatOps.hostDivf (1 : Ideal φ) (FloatOps.addf 1 (FloatOps.hostUnary .exp (FloatOps.hostNegf x))) := rfl
theorem logistic_eq_host_f32 (x : Ideal .f32) :
    FloatOps.logistic x
      = FloatOps.hostDivf (1 : Ideal .f32) (FloatOps.addf 1 (FloatOps.hostUnary .exp (FloatOps.hostNegf x))) := rfl
/-- and the same expression in a kernel's operations, and the host's one-operation logistic. -/
theorem logistic_eq_kernel {φ : FTy} (x : Ideal φ) :
    FloatOps.logistic x = FloatOps.divf (1 : Ideal φ) (FloatOps.addf 1 (FloatOps.exp (FloatOps.negf x))) := rfl
theorem logistic_eq_hostUnary {φ : FTy} (x : Ideal φ) : FloatOps.logistic x = FloatOps.hostUnary .logistic x := rfl

/-! ## Values that are reals

The input check makes every float argument finite, and the operations of a program keep finite values finite (sums,
products, exponentials, quotients by a nonzero value): such a value is the coercion of a real, and equations between
them are equations between reals. -/

/-- An extended real that is a real. -/
def IsReal (x : EReal) : Prop := ∃ r : ℝ, x = (r : EReal)

theorem isReal_coe (r : ℝ) : IsReal (r : EReal) := ⟨r, rfl⟩
theorem isReal_zero : IsReal 0 := ⟨0, rfl⟩
theorem isReal_one : IsReal 1 := ⟨1, rfl⟩

/-- A real is neither infinity, and an extended real that is neither infinity is a real. -/
theorem isReal_iff {x : EReal} : IsReal x ↔ x ≠ ⊤ ∧ x ≠ ⊥ := by
  constructor
  · rintro ⟨r, rfl⟩; exact ⟨EReal.coe_ne_top r, EReal.coe_ne_bot r⟩
  · rintro ⟨ht, hb⟩; exact ⟨x.toReal, (EReal.coe_toReal ht hb).symm⟩

theorem IsReal.ne_top {x : EReal} (h : IsReal x) : x ≠ ⊤ := (isReal_iff.1 h).1
theorem IsReal.ne_bot {x : EReal} (h : IsReal x) : x ≠ ⊥ := (isReal_iff.1 h).2

/-- Sums, differences, negations and products of reals are reals. -/
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.neg {x : EReal} (hx : IsReal x) : IsReal (-x) := by
  obtain ⟨a, rfl⟩ := hx; exact ⟨-a, (EReal.coe_neg a).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- A finite sum of reals is a real. -/
theorem IsReal.sum {ι : Type*} (s : Finset ι) {f : ι → EReal} (hf : ∀ i ∈ s, IsReal (f i)) : IsReal (∑ i ∈ s, f i) := by
  classical
  induction s using Finset.induction_on with
  | empty => simpa using isReal_zero
  | insert a s ha ih =>
    rw [Finset.sum_insert ha]
    exact (hf a (Finset.mem_insert_self a s)).add (ih fun i hi => hf i (Finset.mem_insert_of_mem hi))

/-- The exponential, the hyperbolic tangent and the logistic function of a real are reals. -/
theorem IsReal.exp {x : EReal} (hx : IsReal x) : IsReal (Ideal.exp x) := by
  obtain ⟨a, rfl⟩ := hx; exact ⟨Real.exp a, rfl⟩
theorem IsReal.tanh {x : EReal} (hx : IsReal x) : IsReal (Ideal.tanh x) := by
  obtain ⟨a, rfl⟩ := hx; exact ⟨Real.tanh a, rfl⟩
theorem IsReal.logistic {x : EReal} (hx : IsReal x) : IsReal (Ideal.logistic x) := by
  obtain ⟨a, rfl⟩ := hx; exact ⟨(1 + Real.exp (-a))⁻¹, Ideal.logistic_coe a⟩

/-- The exponential of a real is a positive real; the exponential of any extended real is not negative. -/
theorem exp_coe_pos (r : ℝ) : (0 : EReal) < Ideal.exp (r : EReal) := by
  rw [Ideal.exp_coe]; exact_mod_cast Real.exp_pos r
theorem exp_nonneg (x : EReal) : 0 ≤ Ideal.exp x := by
  induction x using EReal.rec with
  | bot => rw [Ideal.exp_bot]
  | coe r => exact (exp_coe_pos r).le
  | top => rw [Ideal.exp_top]; exact le_top

/-- The quotient of two reals with a nonzero divisor is their real quotient. -/
theorem div_coe_coe (a : ℝ) {b : ℝ} (hb : b ≠ 0) : Ideal.div (a : EReal) (b : EReal) = ((a / b : ℝ) : EReal) := by
  rw [Ideal.div_coe hb, ← EReal.coe_mul, mul_one_div]
theorem IsReal.div {x y : EReal} (hx : IsReal x) (hy : IsReal y) (h0 : y ≠ 0) : IsReal (Ideal.div x y) := by
  obtain ⟨a, rfl⟩ := hx; obtain ⟨b, rfl⟩ := hy
  exact ⟨a / b, div_coe_coe a (by exact_mod_cast h0)⟩

/-- The bit pattern of `+∞` in the 32-bit format denotes `+∞`. -/
theorem ofBits_inf_f32 : Ideal.ofBits .f32 0x7F800000#32 = ⊤ := by simp [Ideal.ofBits, Ideal.ieee]

/-- An extended real whose absolute value is below `+∞` is a real: it is not `+∞`, and it is not `-∞` since then
    its negation would be. -/
theorem isReal_of_abs_lt_top {x : EReal} (h : max x (-x) < ⊤) : IsReal x := by
  refine isReal_iff.2 ⟨fun e => ?_, fun e => ?_⟩
  · subst e; exact absurd h (by simp)
  · subst e; exact absurd h (by simp)

/-- The input check's element fact, `|x| < +∞` as the float comparison computes it, says that `x` is a real. -/
theorem isReal_of_cmpf_abs (x : Ideal .f32)
    (h : FloatOps.cmpf .olt (FloatOps.hostAbsf x) (FloatOps.ofBits (F := Ideal) .f32 0x7F800000#32) = 1#1) : IsReal x := by
  have h' : Ideal.cmp .olt (max x (-x)) (Ideal.ofBits .f32 0x7F800000#32) = 1#1 := h
  rw [ofBits_inf_f32] at h'
  unfold Ideal.cmp at h'
  by_cases hlt : max x (-x) < ⊤
  · exact isReal_of_abs_lt_top hlt
  · simp [hlt] at h'

/-! ## The softmax aggregation, normalised before or after the sum -/

/-- For real weights `e k`, real values `v k` and a nonzero real total `S`: normalising each weight and then
    summing the weighted values is summing them and then normalising (a quotient by a real distributes over a finite
    sum of reals, which it would not over infinities). -/
theorem sum_div_mul_coe {ι : Type*} (s : Finset ι) (e v : ι → ℝ) {S : ℝ} (hS : S ≠ 0) :
    ∑ k ∈ s, Ideal.div (e k : EReal) (S : EReal) * (v k : EReal)
      = Ideal.div (∑ k ∈ s, (e k : EReal) * (v k : EReal)) (S : EReal) := by
  rw [← coe_sum_mul, div_coe_coe _ hS, Finset.sum_div, coe_sum]
  refine Finset.sum_congr rfl fun k _ => ?_
  rw [div_coe_coe _ hS, ← EReal.coe_mul, div_mul_eq_mul_div]

/-- The same with the kernel's normalisation, a product with the reciprocal of the total. -/
theorem sum_mul_recip_coe {ι : Type*} (s : Finset ι) (e v : ι → ℝ) {S : ℝ} (hS : S ≠ 0) :
    (∑ k ∈ s, (e k : EReal) * (v k : EReal)) * Ideal.div 1 (S : EReal)
      = ∑ k ∈ s, Ideal.div (e k : EReal) (S : EReal) * (v k : EReal) := by
  rw [sum_div_mul_coe s e v hS]
  exact mul_div_one_of_ne_zero _ (by exact_mod_cast hS)

end Cert.Lib.IdealSums
-- ==== Proof.Hamilton.lean ====
/-
  The Hamilton product of a batch of quaternion rows with a quaternion weight, on the extended reals.

  A row of 4096 entries is four quaternion components (r, i, j, k) of 1024 coordinates each, side by side: component c
  occupies columns 1024·c … 1024·c + 1023. A quaternion weight is four 1024×1024 matrices Wr, Wi, Wj, Wk (entry (o, k):
  output coordinate o, input coordinate k). With P(c, W)(b, o) = Σ_k x(b, 1024·c + k) · W(o, k), the four output
  components of row b at coordinate o are

      r :  P(0,Wr) − P(1,Wi) − P(2,Wj) − P(3,Wk)
      i :  P(0,Wi) + P(1,Wr) + P(2,Wk) − P(3,Wj)
      j :  P(0,Wj) − P(1,Wk) + P(2,Wr) + P(3,Wi)
      k :  P(0,Wk) + P(1,Wj) − P(2,Wi) + P(3,Wr)

  and the layer adds a bias entry per output column. The same value is one product of the row with the 4096×4096 matrix
  made of the sixteen blocks ±W: a 4096-wide sum is the sum of its four 1024-wide stretches (sums of extended reals may
  be regrouped freely), a product with a negated entry is the negated product, and a negation leaves a sum of REALS —
  which is where finiteness of the inputs is used, since −(+∞ + −∞) and (−∞) + (+∞) differ. Nothing here mentions a
  program.
-/
import Mathlib.Algebra.BigOperators.Fin
import Mathlib.Data.EReal.Inv
import Idealize.ShloMosaic.PureOps.Ideal.Laws
import Idealize.ShloMosaic.Lib.ValueIdx
import Idealize.ShloMosaic.Lib.Pipeline.Value
import proofs.«137164_j60584808677734_1_alg».proof.Proof.LibIdealSums

open scoped BigOperators

noncomputable section

namespace Cert.Hamilton

open Idealize.ShloMosaic Idealize.ShloMosaic.ValueIdx Cert.Lib.IdealSums

/-! ## Columns of a 4096-wide row by component and coordinate -/

/-- Column 1024·c + k: coordinate k of component c. -/
def col (c : Fin 4) (k : Fin 1024) : Fin 4096 :=
  ⟨1024 * c.val + k.val, by have := c.isLt; have := k.isLt; omega⟩

theorem col_val (c : Fin 4) (k : Fin 1024) : (col c k).val = 1024 * c.val + k.val := rfl

/-- The columns are the pairs (component, coordinate). -/
def colEquiv : Fin 4 × Fin 1024 ≃ Fin 4096 where
  toFun p := col p.1 p.2
  invFun q := (⟨q.val / 1024, by have := q.isLt; omega⟩, ⟨q.val % 1024, Nat.mod_lt _ (by decide)⟩)
  left_inv p := by
    have h1 := p.1.isLt
    have h2 := p.2.isLt
    refine Prod.ext (Fin.ext ?_) (Fin.ext ?_)
    · show (1024 * p.1.val + p.2.val) / 1024 = p.1.val
      omega
    · show (1024 * p.1.val + p.2.val) % 1024 = p.2.val
      omega
  right_inv q := Fin.ext (by
    show 1024 * (q.val / 1024) + q.val % 1024 = q.val
    omega)

/-- Every column is some component's coordinate. -/
theorem exists_col (q : Fin 4096) : ∃ (c : Fin 4) (k : Fin 1024), q = col c k :=
  ⟨(colEquiv.symm q).1, (colEquiv.symm q).2, (colEquiv.apply_symm_apply q).symm⟩

/-- A sum over the 4096 columns is the sum of the four components' sums over their 1024 coordinates. -/
theorem sum_cols {M : Type*} [AddCommMonoid M] (f : Fin 4096 → M) :
    ∑ q : Fin 4096, f q
      = ∑ k : Fin 1024, f (col 0 k) + ∑ k : Fin 1024, f (col 1 k) + ∑ k : Fin 1024, f (col 2 k)
        + ∑ k : Fin 1024, f (col 3 k) := by
  rw [← Equiv.sum_comp colEquiv f, Fintype.sum_prod_type, Fin.sum_univ_four]
  rfl

/-! ## A negation leaves a sum of reals -/

/-- The sum of the negations of finitely many reals is the negation of their sum. -/
theorem sum_neg_of_isReal {ι : Type*} (s : Finset ι) (f : ι → EReal) (hf : ∀ i ∈ s, IsReal (f i)) :
    ∑ i ∈ s, -(f i) = -(∑ i ∈ s, f i) := by
  classical
  induction s using Finset.induction_on with
  | empty => simp
  | insert a s ha ih =>
    obtain ⟨r, hr⟩ := hf a (Finset.mem_insert_self a s)
    obtain ⟨t, ht⟩ := IsReal.sum s fun i hi => hf i (Finset.mem_insert_of_mem hi)
    rw [Finset.sum_insert ha, Finset.sum_insert ha, ih fun i hi => hf i (Finset.mem_insert_of_mem hi), hr, ht,
      ← EReal.coe_neg, ← EReal.coe_neg, ← EReal.coe_add, ← EReal.coe_add, ← EReal.coe_neg, neg_add]

/-! ## The layer -/

/-- P(c, W)(b, o): the rows' component c against the weight matrix W, at row b and output coordinate o. -/
def part {r : Nat} (X : (⟨2, ![r, 4096]⟩ : Shape).Idx → EReal) (W : (⟨2, ![1024, 1024]⟩ : Shape).Idx → EReal)
    (c : Fin 4) (b : Fin r) (o : Fin 1024) : EReal :=
  ∑ k : Fin 1024, X (ix2 b (col c k)) * W (ix2 o k)

/-- The four output components of row b at output coordinate o, before the bias. -/
def comp {r : Nat} (X : (⟨2, ![r, 4096]⟩ : Shape).Idx → EReal)
    (Wr Wi Wj Wk : (⟨2, ![1024, 1024]⟩ : Shape).Idx → EReal) (b : Fin r) (o : Fin 1024) : Fin 4 → EReal :=
  ![part X Wr 0 b o - part X Wi 1 b o - part X Wj 2 b o - part X Wk 3 b o,
    part X Wi 0 b o + part X Wr 1 b o + part X Wk 2 b o - part X Wj 3 b o,
    part X Wj 0 b o - part X Wk 1 b o + part X Wr 2 b o + part X Wi 3 b o,
    part X Wk 0 b o + part X Wj 1 b o - part X Wi 2 b o + part X Wr 3 b o]

/-- The layer on r rows: at row b and column 1024·a + o, component a at coordinate o plus the column's bias entry. -/
def quat {r : Nat} (X : (⟨2, ![r, 4096]⟩ : Shape).Idx → EReal)
    (Wr Wi Wj Wk : (⟨2, ![1024, 1024]⟩ : Shape).Idx → EReal) (bias : (⟨1, ![4096]⟩ : Shape).Idx → EReal) :
    (⟨2, ![r, 4096]⟩ : Shape).Idx → EReal :=
  fun i => comp X Wr Wi Wj Wk (i 0) (colEquiv.symm (i 1)).2 (colEquiv.symm (i 1)).1 + bias (ix1 (i 1))

theorem quat_apply {r : Nat} (X : (⟨2, ![r, 4096]⟩ : Shape).Idx → EReal)
    (Wr Wi Wj Wk : (⟨2, ![1024, 1024]⟩ : Shape).Idx → EReal) (bias : (⟨1, ![4096]⟩ : Shape).Idx → EReal)
    (b : Fin r) (a : Fin 4) (o : Fin 1024) :
    quat X Wr Wi Wj Wk bias (ix2 b (col a o)) = comp X Wr Wi Wj Wk b o a + bias (ix1 (col a o)) := by
  show comp X Wr Wi Wj Wk b (colEquiv.symm (col a o)).2 (colEquiv.symm (col a o)).1 + _ = _
  rw [show col a o = colEquiv (a, o) from rfl, Equiv.symm_apply_apply]
  rfl

/-- A component of the layer depends on one row: if row p of X' is row b of X, the parts agree … -/
theorem part_row {r r' : Nat} (X : (⟨2, ![r, 4096]⟩ : Shape).Idx → EReal) (X' : (⟨2, ![r', 4096]⟩ : Shape).Idx → EReal)
    (W : (⟨2, ![1024, 1024]⟩ : Shape).Idx → EReal) (c : Fin 4) (p : Fin r') (b : Fin r) (o : Fin 1024)
    (h : ∀ q : Fin 4096, X' (ix2 p q) = X (ix2 b q)) : part X' W c p o = part X W c b o :=
  Finset.sum_congr rfl fun k _ => by rw [h]

/-- … and so do the components. -/
theorem comp_row {r r' : Nat} (X : (⟨2, ![r, 4096]⟩ : Shape).Idx → EReal) (X' : (⟨2, ![r', 4096]⟩ : Shape).Idx → EReal)
    (Wr Wi Wj Wk : (⟨2, ![1024, 1024]⟩ : Shape).Idx → EReal) (p : Fin r') (b : Fin r) (o : Fin 1024)
    (h : ∀ q : Fin 4096, X' (ix2 p q) = X (ix2 b q)) : comp X' Wr Wi Wj Wk p o = comp X Wr Wi Wj Wk b o := by
  unfold comp
  simp only [fun W c => part_row X X' W c p b o h]

/-! ## The same value as one product with the matrix of signed blocks -/

/-- Block (a, c) of the 4096×4096 matrix: which weight matrix meets input component c in output component a, and
    with which sign. -/
def block (Wr Wi Wj Wk : (⟨2, ![1024, 1024]⟩ : Shape).Idx → EReal) :
    Fin 4 → Fin 4 → (⟨2, ![1024, 1024]⟩ : Shape).Idx → EReal :=
  ![![Wr, fun i => -Wi i, fun i => -Wj i, fun i => -Wk i],
    ![Wi, Wr, Wk, fun i => -Wj i],
    ![Wj, fun i => -Wk i, Wr, Wi],
    ![Wk, Wj, fun i => -Wi i, Wr]]

/-- A component's stretch of the row against a negated weight matrix is the negated part, the entries being reals. -/
theorem part_neg {r : Nat} (X : (⟨2, ![r, 4096]⟩ : Shape).Idx → EReal) (W : (⟨2, ![1024, 1024]⟩ : Shape).Idx → EReal)
    (hX : ∀ i, IsReal (X i)) (hW : ∀ i, IsReal (W i)) (c : Fin 4) (b : Fin r) (o : Fin 1024) :
    ∑ k : Fin 1024, X (ix2 b (col c k)) * -(W (ix2 o k)) = -(part X W c b o) := by
  unfold part
  rw [← sum_neg_of_isReal _ _ fun k _ => (hX _).mul (hW _)]
  exact Finset.sum_congr rfl fun k _ => mul_neg _ _

/-- Row b of X against row 1024·a + o of a matrix B whose sixteen blocks are the signed weight matrices is component a of
    the layer at coordinate o, for real entries. -/
theorem row_times_blocks {r : Nat} (X : (⟨2, ![r, 4096]⟩ : Shape).Idx → EReal)
    (Wr Wi Wj Wk : (⟨2, ![1024, 1024]⟩ : Shape).Idx → EReal) (B : (⟨2, ![4096, 4096]⟩ : Shape).Idx → EReal)
    (hB : ∀ (a : Fin 4) (o : Fin 1024) (c : Fin 4) (k : Fin 1024),
      B (ix2 (col a o) (col c k)) = block Wr Wi Wj Wk a c (ix2 o k))
    (hX : ∀ i, IsReal (X i)) (hWr : ∀ i, IsReal (Wr i)) (hWi : ∀ i, IsReal (Wi i)) (hWj : ∀ i, IsReal (Wj i))
    (hWk : ∀ i, IsReal (Wk i)) (b : Fin r) (a : Fin 4) (o : Fin 1024) :
    ∑ q : Fin 4096, X (ix2 b q) * B (ix2 (col a o) q) = comp X Wr Wi Wj Wk b o a := by
  rw [sum_cols]
  simp only [hB]
  fin_cases a
  · show part X Wr 0 b o + ∑ k : Fin 1024, X (ix2 b (col 1 k)) * -(Wi (ix2 o k))
        + ∑ k : Fin 1024, X (ix2 b (col 2 k)) * -(Wj (ix2 o k)) + ∑ k : Fin 1024, X (ix2 b (col 3 k)) * -(Wk (ix2 o k))
      = part X Wr 0 b o - part X Wi 1 b o - part X Wj 2 b o - part X Wk 3 b o
    rw [part_neg X Wi hX hWi, part_neg X Wj hX hWj, part_neg X Wk hX hWk, ← sub_eq_add_neg, ← sub_eq_add_neg,
      ← sub_eq_add_neg]
  · show part X Wi 0 b o + part X Wr 1 b o + part X Wk 2 b o + ∑ k : Fin 1024, X (ix2 b (col 3 k)) * -(Wj (ix2 o k))
      = part X Wi 0 b o + part X Wr 1 b o + part X Wk 2 b o - part X Wj 3 b o
    rw [part_neg X Wj hX hWj, ← sub_eq_add_neg]
  · show part X Wj 0 b o + ∑ k : Fin 1024, X (ix2 b (col 1 k)) * -(Wk (ix2 o k)) + part X Wr 2 b o + part X Wi 3 b o
      = part X Wj 0 b o - part X Wk 1 b o + part X Wr 2 b o + part X Wi 3 b o
    rw [part_neg X Wk hX hWk, ← sub_eq_add_neg]
  · show part X Wk 0 b o + part X Wj 1 b o + ∑ k : Fin 1024, X (ix2 b (col 2 k)) * -(Wi (ix2 o k)) + part X Wr 3 b o
      = part X Wk 0 b o + part X Wj 1 b o - part X Wi 2 b o + part X Wr 3 b o
    rw [part_neg X Wi hX hWi, ← sub_eq_add_neg]

/-- So the rows times the transposed block matrix, plus the bias row, is the layer. -/
theorem product_eq_quat {r : Nat} (X : (⟨2, ![r, 4096]⟩ : Shape).Idx → EReal)
    (Wr Wi Wj Wk : (⟨2, ![1024, 1024]⟩ : Shape).Idx → EReal) (bias : (⟨1, ![4096]⟩ : Shape).Idx → EReal)
    (B : (⟨2, ![4096, 4096]⟩ : Shape).Idx → EReal)
    (hB : ∀ (a : Fin 4) (o : Fin 1024) (c : Fin 4) (k : Fin 1024),
      B (ix2 (col a o) (col c k)) = block Wr Wi Wj Wk a c (ix2 o k))
    (hX : ∀ i, IsReal (X i)) (hWr : ∀ i, IsReal (Wr i)) (hWi : ∀ i, IsReal (Wi i)) (hWj : ∀ i, IsReal (Wj i))
    (hWk : ∀ i, IsReal (Wk i)) (b : Fin r) (q : Fin 4096) :
    ∑ k : Fin 4096, X (ix2 b k) * B (ix2 q k) + bias (ix1 q) = quat X Wr Wi Wj Wk bias (ix2 b q) := by
  obtain ⟨a, o, rfl⟩ := exists_col q
  rw [quat_apply, row_times_blocks X Wr Wi Wj Wk B hB hX hWr hWi hWj hWk]

/-! ## Four pieces of one shape laid side by side, or one above the other, read at an index -/

section Concat
variable {α : Type}

/-- Four r×1024 pieces laid side by side: column 1024·c + k of the result is column k of piece c. -/
theorem concat4_cols {r : Nat} (y0 y1 y2 y3 : (⟨2, ![r, 1024]⟩ : Shape).Idx → α)
    (h : Shape.Concatenates [(⟨2, ![r, 1024]⟩ : Shape), ⟨2, ![r, 1024]⟩, ⟨2, ![r, 1024]⟩, ⟨2, ![r, 1024]⟩]
      ⟨2, ![r, 4096]⟩ 1)
    (p : Fin r) (c : Fin 4) (k : Fin 1024) :
    concatenate (⟨2, ![r, 4096]⟩ : Shape) 1
        [⟨(⟨2, ![r, 1024]⟩ : Shape), y0⟩, ⟨(⟨2, ![r, 1024]⟩ : Shape), y1⟩, ⟨(⟨2, ![r, 1024]⟩ : Shape), y2⟩,
          ⟨(⟨2, ![r, 1024]⟩ : Shape), y3⟩] h (ix2 p (col c k))
      = (![y0, y1, y2, y3] : Fin 4 → _) c (ix2 p k) :=
  concatenate_ofFn_apply (t := ⟨2, ![r, 4096]⟩) (s₁ := ⟨2, ![r, 1024]⟩) 1 ![y0, y1, y2, y3] h rfl 1024 rfl
    (ix2 p (col c k)) c
    (by show (1024 * c.val + k.val) / 1024 = c.val
        have := k.isLt
        omega)
    (ix2 p k)
    (by show k.val = (1024 * c.val + k.val) % 1024
        have := k.isLt
        omega)
    (fun b hb => match b with
      | ⟨0, _⟩ => rfl
      | ⟨1, _⟩ => absurd rfl hb)

/-- Four 1024×n pieces one above the other: row 1024·a + o of the result is row o of piece a. -/
theorem concat4_rows {n : Nat} (z0 z1 z2 z3 : (⟨2, ![1024, n]⟩ : Shape).Idx → α)
    (h : Shape.Concatenates [(⟨2, ![1024, n]⟩ : Shape), ⟨2, ![1024, n]⟩, ⟨2, ![1024, n]⟩, ⟨2, ![1024, n]⟩]
      ⟨2, ![4096, n]⟩ 0)
    (a : Fin 4) (o : Fin 1024) (q : Fin n) :
    concatenate (⟨2, ![4096, n]⟩ : Shape) 0
        [⟨(⟨2, ![1024, n]⟩ : Shape), z0⟩, ⟨(⟨2, ![1024, n]⟩ : Shape), z1⟩, ⟨(⟨2, ![1024, n]⟩ : Shape), z2⟩,
          ⟨(⟨2, ![1024, n]⟩ : Shape), z3⟩] h (ix2 (col a o) q)
      = (![z0, z1, z2, z3] : Fin 4 → _) a (ix2 o q) :=
  concatenate_ofFn_apply (t := ⟨2, ![4096, n]⟩) (s₁ := ⟨2, ![1024, n]⟩) 0 ![z0, z1, z2, z3] h rfl 1024 rfl
    (ix2 (col a o) q) a
    (by show (1024 * a.val + o.val) / 1024 = a.val
        have := o.isLt
        omega)
    (ix2 o q)
    (by show o.val = (1024 * a.val + o.val) % 1024
        have := o.isLt
        omega)
    (fun b hb => match b with
      | ⟨0, _⟩ => absurd rfl hb
      | ⟨1, _⟩ => rfl)

end Concat

end Cert.Hamilton

end
-- ==== Proof.LibBlockReads.lean ====
/-
  Vector operations of a kernel body read at an index, on the extended reals: a matrix product accumulated into
  zeros as the sum over the contracted coordinate (both operand orders), a sum along the first or the last axis
  of a rank-3 block as a sum over that axis's coordinate, and the re-shapings and broadcasts that put a row
  vector or a matrix of per-row scales beside a block. Nothing here mentions a program.
-/
import Idealize.ShloMosaic.PureOps.Ideal.Laws
import Idealize.ShloMosaic.Lib.ValueIdx
import Idealize.ShloMosaic.Lib.Pipeline.Value

open scoped BigOperators

namespace Cert.Lib.BlockReads

open Idealize.ShloMosaic Idealize.ShloMosaic.ValueIdx

/-! ## Matrix products into a zero accumulator -/

section Matmul
variable {m k n : Nat} {φ₁ φ₂ : FTy}

/-- A product of an m×k by a k×n matrix (contracting the left operand's columns with the right operand's rows),
    accumulated into zeros, is at (a, b) the sum over c of A(a, c) · B(c, b). -/
theorem matmul_zero_rows_apply (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A product of an m×k matrix by the TRANSPOSE of an n×k matrix (both operands contracted along their columns),
    accumulated into zeros, is at (a, b) the sum over c of A(a, c) · B(b, c). -/
theorem matmul_zero_cols_apply (d : DotDims ⟨2, ![m, k]⟩ ⟨2, ![n, k]⟩ ⟨2, ![m, n]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (A : FVec Ideal ⟨2, ![m, k]⟩ φ₁) (B : FVec Ideal ⟨2, ![n, k]⟩ φ₂)
    (a : Fin m) (b : Fin n) :
    matmul d prec A B (constant ⟨2, ![m, n]⟩ .f32 0x00000000#32) (ix2 a b) = ∑ c : Fin k, A (ix2 a c) * B (ix2 b c) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Matmul

/-! ## Sums along one axis of a rank-3 block -/

section AxisSums
variable {a b c : Nat} {φ : FTy}

/-- The sum along the FIRST axis of an a×b×c block is at (q, r) the sum over p of the block at (p, q, r). -/
theorem sum_first_axis_apply (src : FVec Ideal ⟨3, ![a, b, c]⟩ φ) (acc : BitVec φ.bits)
    (h : (⟨3, ![a, b, c]⟩ : Shape).Reduces [0] ⟨2, ![b, c]⟩) (hφ : FKind.Formats φ) (hacc : acc = FKind.add.neutral φ hφ)
    (q : Fin b) (r : Fin c) :
    multiReduction .add [0] ⟨2, ![b, c]⟩ src acc h hφ hacc (ix2 q r) = ∑ p : Fin a, src (ix3 p q r) := by
  rw [Ideal.multiReduction_add_single]
  refine Finset.sum_congr rfl fun p _ => congrArg src ?_
  funext ax; apply Fin.ext
  match ax with
  | ⟨0, _⟩ => rfl
  | ⟨1, _⟩ => rfl
  | ⟨2, _⟩ => rfl

/-- The sum along the LAST axis of an a×b×c block is at (p, q) the sum over r of the block at (p, q, r). -/
theorem sum_last_axis_apply (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ r : Fin c, src (ix3 p q r) := by
  rw [Ideal.multiReduction_add_single]
  refine Finset.sum_congr rfl fun r _ => congrArg src ?_
  funext ax; apply Fin.ext
  match ax with
  | ⟨0, _⟩ => rfl
  | ⟨1, _⟩ => rfl
  | ⟨2, _⟩ => rfl

end AxisSums

/-! ## Re-shapings and broadcasts of per-row values -/

section Layout
variable {α : Type} {a b c : Nat}

/-- A 1×b row broadcast down a rows reads its entry b. -/
theorem broadcast_row_apply (x : (⟨2, ![1, b]⟩ : Shape).Idx → α) (h : (⟨2, ![1, b]⟩ : Shape).Broadcasts ⟨2, ![a, b]⟩)
    (p : Fin a) (q : Fin b) : broadcastTo ⟨2, ![a, b]⟩ x h (ix2 p q) = x (ix2 0 q) :=
  broadcastTo_apply x h _ _ fun ax => by
    match ax with
    | ⟨0, _⟩ => rfl
    | ⟨1, _⟩ =>
      show q.val = if b = 1 then 0 else q.val
      split_ifs with hb
      · have := q.isLt; omega
      · rfl

/-- A b×c matrix viewed as one 1×b×c slab and broadcast along a new leading axis of extent a reads the matrix. -/
theorem broadcast_slab_apply (x : (⟨2, ![b, c]⟩ : Shape).Idx → α)
    (h₁ : (⟨2, ![b, c]⟩ : Shape).ShapeCasts ⟨3, ![1, b, c]⟩)
    (h₂ : (⟨3, ![1, b, c]⟩ : Shape).Broadcasts ⟨3, ![a, b, c]⟩) (p : Fin a) (q : Fin b) (r : Fin c) :
    broadcastTo ⟨3, ![a, b, c]⟩ (shapeCast ⟨3, ![1, b, c]⟩ x h₁) h₂ (ix3 p q r) = x (ix2 q r) := by
  refine (broadcastTo_apply _ h₂ _ (ix3 0 q r) fun ax => ?_).trans ?_
  · match ax with
    | ⟨0, _⟩ => rfl
    | ⟨1, _⟩ =>
      show q.val = if b = 1 then 0 else q.val
      split_ifs with hb
      · have := q.isLt; omega
      · rfl
    | ⟨2, _⟩ =>
      show r.val = if c = 1 then 0 else r.val
      split_ifs with hc
      · have := r.isLt; omega
      · rfl
  · refine shapeCast_apply x h₁ _ _ ?_
    rw [Shape.rowMajor_val_two, Shape.rowMajor_val_three]
    show q.val * c + r.val = ((0 : Nat) * b + q.val) * c + r.val
    rw [Nat.zero_mul, Nat.zero_add]

/-- An a×b matrix viewed as a×b×1 columns and broadcast along a new trailing axis of extent c reads the matrix. -/
theorem broadcast_cols_apply (x : (⟨2, ![a, b]⟩ : Shape).Idx → α)
    (h₁ : (⟨2, ![a, b]⟩ : Shape).ShapeCasts ⟨3, ![a, b, 1]⟩)
    (h₂ : (⟨3, ![a, b, 1]⟩ : Shape).Broadcasts ⟨3, ![a, b, c]⟩) (p : Fin a) (q : Fin b) (r : Fin c) :
    broadcastTo ⟨3, ![a, b, c]⟩ (shapeCast ⟨3, ![a, b, 1]⟩ x h₁) h₂ (ix3 p q r) = x (ix2 p q) := by
  refine (broadcastTo_apply _ h₂ _ (ix3 p q 0) fun ax => ?_).trans ?_
  · match ax with
    | ⟨0, _⟩ =>
      show p.val = if a = 1 then 0 else p.val
      split_ifs with ha
      · have := p.isLt; omega
      · rfl
    | ⟨1, _⟩ =>
      show q.val = if b = 1 then 0 else q.val
      split_ifs with hb
      · have := q.isLt; omega
      · rfl
    | ⟨2, _⟩ => rfl
  · refine shapeCast_apply x h₁ _ _ ?_
    rw [Shape.rowMajor_val_two, Shape.rowMajor_val_three]
    show p.val * b + q.val = (p.val * b + q.val) * 1 + 0
    omega

end Layout

end Cert.Lib.BlockReads
-- ==== Proof.KernelBody.lean ====
/-
  The kernel body's arithmetic, read at an index of its 256×4096 output block.

  The body loads a block X of 256 rows, four 1024×1024 matrices (each holding a weight matrix transposed: entry (k, o) is
  the weight's entry (o, k)) and the 1×4096 bias row. It cuts X into its four 1024-wide components, forms the sixteen
  products component × matrix into zero accumulators, combines them four by four with the Hamilton product's signs, lays
  the four results side by side and adds the bias row to every row. A change of float format is the identity on the
  extended reals and a product into a zero accumulator is the sum over the contracted coordinate, so at row p and column
  1024·a + o the body's value is component a of the layer on the block's rows at coordinate o, plus the bias entry of
  that column.
-/
import proofs.«137164_j60584808677734_1_alg».proof.Proof.Gen.KernelIdeal.Skeleton
import proofs.«137164_j60584808677734_1_alg».proof.Proof.Hamilton
import proofs.«137164_j60584808677734_1_alg».proof.Proof.LibBlockReads
import Idealize.ShloMosaic.Lib.ValueIdx
import Idealize.ShloMosaic.Lib.Pipeline.Value

open scoped BigOperators

noncomputable section

namespace Cert.KernelIdeal.Body

open Cert.KernelIdeal Cert.KernelIdeal.Gen Idealize.ShloMosaic Idealize.ShloMosaic.ValueIdx Cert.Hamilton

/-! ## The four components of the block of rows -/

/-- Component c of the block: its columns 1024·c … 1024·c + 1023 (the change of format is the identity). -/
theorem slice0 (v0 : FVec Ideal S256x4096 .f32) (p : Fin 256) (k : Fin 1024) :
    k0_pay2 (F := Ideal) v0 (ix2 p k) = v0 (ix2 p (col 0 k)) := by
  unfold k0_pay2
  refine (truncf_apply (φ := .f32) (ψ := .bf16) _ _ _).trans ?_
  exact extractStridedSlice_apply ![0, 0] v0 _ (ix2 p k) (ix2 p (col 0 k)) (fun a => match a with
    | ⟨0, _⟩ => by show p.val = 0 + p.val; omega
    | ⟨1, _⟩ => by show 1024 * 0 + k.val = 0 + k.val; omega)

theorem slice1 (v0 : FVec Ideal S256x4096 .f32) (p : Fin 256) (k : Fin 1024) :
    k0_pay3 (F := Ideal) v0 (ix2 p k) = v0 (ix2 p (col 1 k)) := by
  unfold k0_pay3
  refine (truncf_apply (φ := .f32) (ψ := .bf16) _ _ _).trans ?_
  exact extractStridedSlice_apply ![0, 1024] v0 _ (ix2 p k) (ix2 p (col 1 k)) (fun a => match a with
    | ⟨0, _⟩ => by show p.val = 0 + p.val; omega
    | ⟨1, _⟩ => by show 1024 * 1 + k.val = 1024 + k.val; omega)

theorem slice2 (v0 : FVec Ideal S256x4096 .f32) (p : Fin 256) (k : Fin 1024) :
    k0_pay4 (F := Ideal) v0 (ix2 p k) = v0 (ix2 p (col 2 k)) := by
  unfold k0_pay4
  refine (truncf_apply (φ := .f32) (ψ := .bf16) _ _ _).trans ?_
  exact extractStridedSlice_apply ![0, 2048] v0 _ (ix2 p k) (ix2 p (col 2 k)) (fun a => match a with
    | ⟨0, _⟩ => by show p.val = 0 + p.val; omega
    | ⟨1, _⟩ => by show 1024 * 2 + k.val = 2048 + k.val; omega)

theorem slice3 (v0 : FVec Ideal S256x4096 .f32) (p : Fin 256) (k : Fin 1024) :
    k0_pay5 (F := Ideal) v0 (ix2 p k) = v0 (ix2 p (col 3 k)) := by
  unfold k0_pay5
  refine (truncf_apply (φ := .f32) (ψ := .bf16) _ _ _).trans ?_
  exact extractStridedSlice_apply ![0, 3072] v0 _ (ix2 p k) (ix2 p (col 3 k)) (fun a => match a with
    | ⟨0, _⟩ => by show p.val = 0 + p.val; omega
    | ⟨1, _⟩ => by show 1024 * 3 + k.val = 3072 + k.val; omega)

/-! ## The four matrices as loaded: the re-shaping in place is the identity -/

theorem mat6 (v : FVec Ideal S1024x1024 .bf16) : k0_pay6 (F := Ideal) v = v := by unfold k0_pay6; exact shapeCast_self v _
theorem mat7 (v : FVec Ideal S1024x1024 .bf16) : k0_pay7 (F := Ideal) v = v := by unfold k0_pay7; exact shapeCast_self v _
theorem mat8 (v : FVec Ideal S1024x1024 .bf16) : k0_pay8 (F := Ideal) v = v := by unfold k0_pay8; exact shapeCast_self v _
theorem mat9 (v : FVec Ideal S1024x1024 .bf16) : k0_pay9 (F := Ideal) v = v := by unfold k0_pay9; exact shapeCast_self v _

/-! ## One product -/

/-- A component of the block against a loaded matrix, into zeros: if the left operand's row p is component c of the
    block's row p, and the right operand is the weight W transposed, the product at (p, o) is P(c, W)(p, o). -/
theorem product_apply (v0 : FVec Ideal S256x4096 .f32) (A : FVec Ideal S256x1024 .bf16) (B : FVec Ideal S1024x1024 .bf16)
    (W : S1024x1024.Idx → EReal) (c : Fin 4) (p : Fin 256) (o : Fin 1024)
    (hA : ∀ k : Fin 1024, A (ix2 p k) = v0 (ix2 p (col c k))) (hB : ∀ k : Fin 1024, B (ix2 k o) = W (ix2 o k)) :
    matmul dot_S256x1024_S1024x1024_S256x1024_1_0_0_1_n_n none A B (constant (F := Ideal) S256x1024 .f32 0x00000000#32)
      (ix2 p o) = part v0 W c p o :=
  (Cert.Lib.BlockReads.matmul_zero_rows_apply dot_S256x1024_S1024x1024_S256x1024_1_0_0_1_n_n rfl rfl rfl rfl rfl rfl
    none A B p o).trans (Finset.sum_congr rfl fun k _ => by rw [hA k, hB k])

/-! ## The four pieces -/

section Pieces
variable (v0 : FVec Ideal S256x4096 .f32) (v9 v11 v13 v15 : FVec Ideal S1024x1024 .bf16)
  (Wr Wi Wj Wk : S1024x1024.Idx → EReal)

/-- The r piece: xr·Wr − xi·Wi − xj·Wj − xk·Wk. -/
theorem piece_r (h9 : ∀ k o : Fin 1024, v9 (ix2 k o) = Wr (ix2 o k)) (h11 : ∀ k o : Fin 1024, v11 (ix2 k o) = Wi (ix2 o k))
    (h13 : ∀ k o : Fin 1024, v13 (ix2 k o) = Wj (ix2 o k)) (h15 : ∀ k o : Fin 1024, v15 (ix2 k o) = Wk (ix2 o k))
    (p : Fin 256) (o : Fin 1024) : k0_pay10 (F := Ideal) v0 v9 v11 v13 v15 (ix2 p o) = comp v0 Wr Wi Wj Wk p o 0 := by
  unfold k0_pay10
  rw [mat6, mat7, mat8, mat9]
  exact congrArg₂ (· - ·) (congrArg₂ (· - ·) (congrArg₂ (· - ·)
    (product_apply v0 _ _ Wr 0 p o (slice0 v0 p) (h9 · o))
    (product_apply v0 _ _ Wi 1 p o (slice1 v0 p) (h11 · o)))
    (product_apply v0 _ _ Wj 2 p o (slice2 v0 p) (h13 · o)))
    (product_apply v0 _ _ Wk 3 p o (slice3 v0 p) (h15 · o))

/-- The i piece: xr·Wi + xi·Wr + xj·Wk − xk·Wj. -/
theorem piece_i (h9 : ∀ k o : Fin 1024, v9 (ix2 k o) = Wr (ix2 o k)) (h11 : ∀ k o : Fin 1024, v11 (ix2 k o) = Wi (ix2 o k))
    (h13 : ∀ k o : Fin 1024, v13 (ix2 k o) = Wj (ix2 o k)) (h15 : ∀ k o : Fin 1024, v15 (ix2 k o) = Wk (ix2 o k))
    (p : Fin 256) (o : Fin 1024) : k0_pay11 (F := Ideal) v0 v9 v11 v13 v15 (ix2 p o) = comp v0 Wr Wi Wj Wk p o 1 := by
  unfold k0_pay11
  rw [mat6, mat7, mat8, mat9]
  exact congrArg₂ (· - ·) (congrArg₂ (· + ·) (congrArg₂ (· + ·)
    (product_apply v0 _ _ Wi 0 p o (slice0 v0 p) (h11 · o))
    (product_apply v0 _ _ Wr 1 p o (slice1 v0 p) (h9 · o)))
    (product_apply v0 _ _ Wk 2 p o (slice2 v0 p) (h15 · o)))
    (product_apply v0 _ _ Wj 3 p o (slice3 v0 p) (h13 · o))

/-- The j piece: xr·Wj − xi·Wk + xj·Wr + xk·Wi (its last product is added outside the first three). -/
theorem piece_j (h9 : ∀ k o : Fin 1024, v9 (ix2 k o) = Wr (ix2 o k)) (h11 : ∀ k o : Fin 1024, v11 (ix2 k o) = Wi (ix2 o k))
    (h13 : ∀ k o : Fin 1024, v13 (ix2 k o) = Wj (ix2 o k)) (h15 : ∀ k o : Fin 1024, v15 (ix2 k o) = Wk (ix2 o k))
    (p : Fin 256) (o : Fin 1024) :
    addf (k0_pay12 (F := Ideal) v0 v9 v13 v15) (k0_pay13 (F := Ideal) v0 v11) (ix2 p o) = comp v0 Wr Wi Wj Wk p o 2 := by
  unfold k0_pay12 k0_pay13
  rw [mat6, mat7, mat8, mat9]
  exact congrArg₂ (· + ·) (congrArg₂ (· + ·) (congrArg₂ (· - ·)
    (product_apply v0 _ _ Wj 0 p o (slice0 v0 p) (h13 · o))
    (product_apply v0 _ _ Wk 1 p o (slice1 v0 p) (h15 · o)))
    (product_apply v0 _ _ Wr 2 p o (slice2 v0 p) (h9 · o)))
    (product_apply v0 _ _ Wi 3 p o (slice3 v0 p) (h11 · o))

/-- The k piece: xr·Wk + xi·Wj − xj·Wi + xk·Wr. -/
theorem piece_k (h9 : ∀ k o : Fin 1024, v9 (ix2 k o) = Wr (ix2 o k)) (h11 : ∀ k o : Fin 1024, v11 (ix2 k o) = Wi (ix2 o k))
    (h13 : ∀ k o : Fin 1024, v13 (ix2 k o) = Wj (ix2 o k)) (h15 : ∀ k o : Fin 1024, v15 (ix2 k o) = Wk (ix2 o k))
    (p : Fin 256) (o : Fin 1024) :
    addf (subf (addf
        (matmul dot_S256x1024_S1024x1024_S256x1024_1_0_0_1_n_n none (k0_pay2 (F := Ideal) v0) (k0_pay9 (F := Ideal) v15)
          (constant (F := Ideal) S256x1024 .f32 0x00000000#32))
        (matmul dot_S256x1024_S1024x1024_S256x1024_1_0_0_1_n_n none (k0_pay3 (F := Ideal) v0) (k0_pay8 (F := Ideal) v13)
          (constant (F := Ideal) S256x1024 .f32 0x00000000#32)))
        (matmul dot_S256x1024_S1024x1024_S256x1024_1_0_0_1_n_n none (k0_pay4 (F := Ideal) v0) (k0_pay7 (F := Ideal) v11)
          (constant (F := Ideal) S256x1024 .f32 0x00000000#32)))
        (matmul dot_S256x1024_S1024x1024_S256x1024_1_0_0_1_n_n none (k0_pay5 (F := Ideal) v0) (k0_pay6 (F := Ideal) v9)
          (constant (F := Ideal) S256x1024 .f32 0x00000000#32)) (ix2 p o)
      = comp v0 Wr Wi Wj Wk p o 3 := by
  rw [mat6, mat7, mat8, mat9]
  exact congrArg₂ (· + ·) (congrArg₂ (· - ·) (congrArg₂ (· + ·)
    (product_apply v0 _ _ Wk 0 p o (slice0 v0 p) (h15 · o))
    (product_apply v0 _ _ Wj 1 p o (slice1 v0 p) (h13 · o)))
    (product_apply v0 _ _ Wi 2 p o (slice2 v0 p) (h11 · o)))
    (product_apply v0 _ _ Wr 3 p o (slice3 v0 p) (h9 · o))

/-! ## The whole payload -/

/-- What the body stores, at row p and column 1024·a + o of the block: component a of the layer on the block's rows at
    coordinate o, plus the bias row's entry at that column. -/
theorem payload_apply (v46 : FVec Ideal S1x4096 .f32)
    (h9 : ∀ k o : Fin 1024, v9 (ix2 k o) = Wr (ix2 o k)) (h11 : ∀ k o : Fin 1024, v11 (ix2 k o) = Wi (ix2 o k))
    (h13 : ∀ k o : Fin 1024, v13 (ix2 k o) = Wj (ix2 o k)) (h15 : ∀ k o : Fin 1024, v15 (ix2 k o) = Wk (ix2 o k))
    (p : Fin 256) (a : Fin 4) (o : Fin 1024) :
    k0_pay1 (F := Ideal) (k0_pay2 (F := Ideal) v0) (k0_pay3 (F := Ideal) v0) (k0_pay4 (F := Ideal) v0) (k0_pay5 (F := Ideal) v0) (k0_pay6 (F := Ideal) v9) (k0_pay7 (F := Ideal) v11) (k0_pay8 (F := Ideal) v13) (k0_pay9 (F := Ideal) v15)
        (k0_pay10 (F := Ideal) v0 v9 v11 v13 v15) (k0_pay11 (F := Ideal) v0 v9 v11 v13 v15) (k0_pay12 (F := Ideal) v0 v9 v13 v15) (k0_pay13 (F := Ideal) v0 v11) v46
        (ix2 p (col a o))
      = comp v0 Wr Wi Wj Wk p o a + v46 (ix2 0 (col a o)) := by
  unfold k0_pay1
  refine (addf_apply _ _ _).trans (congrArg₂ (· + ·) ?_ ?_)
  · refine (concat4_cols _ _ _ _ _ p a o).trans ?_
    fin_cases a
    · exact piece_r v0 v9 v11 v13 v15 Wr Wi Wj Wk h9 h11 h13 h15 p o
    · exact piece_i v0 v9 v11 v13 v15 Wr Wi Wj Wk h9 h11 h13 h15 p o
    · exact piece_j v0 v9 v11 v13 v15 Wr Wi Wj Wk h9 h11 h13 h15 p o
    · exact piece_k v0 v9 v11 v13 v15 Wr Wi Wj Wk h9 h11 h13 h15 p o
  · refine (Cert.Lib.BlockReads.broadcast_row_apply _ _ p (col a o)).trans ?_
    rw [shapeCast_self]

end Pieces

end Cert.KernelIdeal.Body

end
-- ==== Proof.KernelValue.lean ====
/-
  The kernel's result array as one function of the argument arrays.

  The host prepares, before the launch, the four weight matrices transposed (and narrowed, which is the identity on the
  extended reals) and the bias vector re-shaped to one row. The grid has 32 points; point t stages rows
  256·t … 256·t + 255 of the input, the four prepared matrices whole and the bias row, and writes back rows
  256·t … 256·t + 255 of the result. By the body's arithmetic read at an index, what point t writes back is rows
  256·t … of the Hamilton-product layer of the ARGUMENT arrays (a component of the layer depends on one row of the input
  only), and the 32 row blocks tile the result: row r lies in the block of point r / 256. No finiteness is used here.
-/
import proofs.«137164_j60584808677734_1_alg».proof.Proof.Gen.KernelIdeal.Value
import proofs.«137164_j60584808677734_1_alg».proof.Proof.KernelBody
import Idealize.ShloMosaic.Lib.Pipeline.Value
import Idealize.ShloMosaic.Lib.StableHlo.Run
import Idealize.ShloMosaic.Lib.Tactic

noncomputable section

namespace Cert.KernelIdeal.Layer

open Cert.KernelIdeal Cert.KernelIdeal.Gen Cert.KernelIdeal.Value Idealize.ShloMosaic Idealize.ShloMosaic.TcCoe
open Idealize.SL.Sem Idealize.ShloMosaic.ValueIdx Cert.Hamilton
open Idealize.ShloMosaic.Pipeline (Dat)

variable (m : (ℓ : Loc nD τ sig) → Buf (Elt Ideal) ℓ) (ρ : Dev nD → PrngReg)

/-- The layer of the argument arrays: what the result array ends holding. -/
abbrev layer (c : Dev nD) : S8192x4096.Idx → EReal :=
  quat (r := 8192) (m ((c : Thread nD τ).loc main_arg0) : S8192x4096.Idx → EReal)
    (m ((c : Thread nD τ).loc main_arg1) : S1024x1024.Idx → EReal)
    (m ((c : Thread nD τ).loc main_arg2) : S1024x1024.Idx → EReal)
    (m ((c : Thread nD τ).loc main_arg3) : S1024x1024.Idx → EReal)
    (m ((c : Thread nD τ).loc main_arg4) : S1024x1024.Idx → EReal)
    (m ((c : Thread nD τ).loc main_arg5) : S4096.Idx → EReal)

/-! ## The index maps, decided over the grid -/

theorem hz : (![0, 0] : Fin 2 → Nat) = fun _ => 0 := funext fun a => by fin_cases a <;> rfl

/-- The input's and the result's row blocks move with the point; every other window stays at its one block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem point_lt (t : Fin cfg0.N) : t.val < 32 := lt_of_lt_of_eq t.isLt N_0

/-- Row 256·t + p of the arrays: row p of point t's block. -/
def row (t : Fin cfg0.N) (p : Fin 256) : Fin 8192 :=
  ⟨256 * t.val + p.val, by have := point_lt t; have := p.isLt; omega⟩

/-! ## What the host prepared -/

theorem V_main_v1 (c : Dev nD) : (V m c main_v1 : S1024x1024.Idx → EReal)
    = truncf (F := Ideal) .bf16 (transpose S1024x1024 [1, 0] (m ((c : Thread nD τ).loc main_arg1)) Facts₀.transposes_S1024x1024_S1024x1024_1_0) Facts₀.bitsLt_bf16_f32 := by
  dsimp only [Gen.V, Gen.hostOps0]; after_results
theorem V_main_v3 (c : Dev nD) : (V m c main_v3 : S1024x1024.Idx → EReal)
    = truncf (F := Ideal) .bf16 (transpose S1024x1024 [1, 0] (m ((c : Thread nD τ).loc main_arg2)) Facts₀.transposes_S1024x1024_S1024x1024_1_0) Facts₀.bitsLt_bf16_f32 := by
  dsimp only [Gen.V, Gen.hostOps0]; after_results
theorem V_main_v5 (c : Dev nD) : (V m c main_v5 : S1024x1024.Idx → EReal)
    = truncf (F := Ideal) .bf16 (transpose S1024x1024 [1, 0] (m ((c : Thread nD τ).loc main_arg3)) Facts₀.transposes_S1024x1024_S1024x1024_1_0) Facts₀.bitsLt_bf16_f32 := by
  dsimp only [Gen.V, Gen.hostOps0]; after_results
theorem V_main_v7 (c : Dev nD) : (V m c main_v7 : S1024x1024.Idx → EReal)
    = truncf (F := Ideal) .bf16 (transpose S1024x1024 [1, 0] (m ((c : Thread nD τ).loc main_arg4)) Facts₀.transposes_S1024x1024_S1024x1024_1_0) Facts₀.bitsLt_bf16_f32 := by
  dsimp only [Gen.V, Gen.hostOps0]; after_results
theorem V_main_v8 (c : Dev nD) : (V m c main_v8 : S1x4096.Idx → EReal)
    = shapeCast S1x4096 (m ((c : Thread nD τ).loc main_arg5)) Facts₀.shapeCasts_S4096_S1x4096 := by
  dsimp only [Gen.V, Gen.hostOps0]; after_results; rfl

/-- A transposed (and narrowed) matrix at (k, o) is the matrix at (o, k). -/
theorem transposed_apply (W : S1024x1024.Idx → EReal) (k o : Fin 1024) :
    truncf (F := Ideal) .bf16 (transpose S1024x1024 [1, 0] W Facts₀.transposes_S1024x1024_S1024x1024_1_0) Facts₀.bitsLt_bf16_f32 (ix2 k o)
      = W (ix2 o k) :=
  transpose_apply [1, 0] W Facts₀.transposes_S1024x1024_S1024x1024_1_0 (ix2 k o) (ix2 o k) (fun b => match b with
    | ⟨0, _⟩ => rfl
    | ⟨1, _⟩ => rfl)

/-- The bias vector as one row, at column q. -/
theorem biasRow_apply (x : S4096.Idx → EReal) (q : Fin 4096) :
    shapeCast S1x4096 x Facts₀.shapeCasts_S4096_S1x4096 (ix2 (0 : Fin 1) q) = x (ix1 q) :=
  shapeCast_apply x _ _ _ (by
    rw [Shape.rowMajor_val_one, Shape.rowMajor_val_two]
    show q.val = 0 * 4096 + q.val
    omega)

/-! ## The windows' blocks as entries of the argument arrays -/

/-- Row p of point t's input block is row 256·t + p of the input. -/
theorem blk0_apply (c : Dev nD) (t : Fin cfg0.N) (p : Fin 256) (q : Fin 4096) :
    (iblk m c 0 t : FVec Ideal S256x4096 .f32) (ix2 p q)
      = (m ((c : Thread nD τ).loc main_arg0) : S8192x4096.Idx → EReal) (ix2 (row t p) q) := by
  obtain ⟨e0, e1, -⟩ := idx_facts t
  unfold iblk
  rw [View.read_apply]
  show V m c main_arg0 _ = _
  rw [V_main_arg0]
  refine congrArg _ (funext fun a => Fin.ext ?_)
  match a with
  | ⟨0, _⟩ => show win0_0.index t (0 : Fin 2) * 256 + 1 * p.val = 256 * t.val + p.val; omega
  | ⟨1, _⟩ => show win0_0.index t (1 : Fin 2) * 4096 + 1 * q.val = q.val; omega

/-- A whole-array window's block is its array. -/
theorem blk1_apply (c : Dev nD) (t : Fin cfg0.N) (k o : Fin 1024) :
    (iblk m c 1 t : FVec Ideal S1024x1024 .bf16) (ix2 k o)
      = (m ((c : Thread nD τ).loc main_arg1) : S1024x1024.Idx → EReal) (ix2 o k) := by
  obtain ⟨-, -, e0, e1, -⟩ := idx_facts t
  unfold iblk
  rw [View.read_apply]
  show (V m c main_v1 : S1024x1024.Idx → EReal) _ = _
  rw [V_main_v1]
  refine Eq.trans (congrArg _ (funext fun a => Fin.ext ?_)) (transposed_apply _ k o)
  match a with
  | ⟨0, _⟩ => show win0_1.index t (0 : Fin 2) * 1024 + 1 * k.val = k.val; omega
  | ⟨1, _⟩ => show win0_1.index t (1 : Fin 2) * 1024 + 1 * o.val = o.val; omega

theorem blk2_apply (c : Dev nD) (t : Fin cfg0.N) (k o : Fin 1024) :
    (iblk m c 2 t : FVec Ideal S1024x1024 .bf16) (ix2 k o)
      = (m ((c : Thread nD τ).loc main_arg2) : S1024x1024.Idx → EReal) (ix2 o k) := by
  obtain ⟨-, -, -, -, e0, e1, -⟩ := idx_facts t
  unfold iblk
  rw [View.read_apply]
  show (V m c main_v3 : S1024x1024.Idx → EReal) _ = _
  rw [V_main_v3]
  refine Eq.trans (congrArg _ (funext fun a => Fin.ext ?_)) (transposed_apply _ k o)
  match a with
  | ⟨0, _⟩ => show win0_2.index t (0 : Fin 2) * 1024 + 1 * k.val = k.val; omega
  | ⟨1, _⟩ => show win0_2.index t (1 : Fin 2) * 1024 + 1 * o.val = o.val; omega

theorem blk3_apply (c : Dev nD) (t : Fin cfg0.N) (k o : Fin 1024) :
    (iblk m c 3 t : FVec Ideal S1024x1024 .bf16) (ix2 k o)
      = (m ((c : Thread nD τ).loc main_arg3) : S1024x1024.Idx → EReal) (ix2 o k) := by
  obtain ⟨-, -, -, -, -, -, e0, e1, -⟩ := idx_facts t
  unfold iblk
  rw [View.read_apply]
  show (V m c main_v5 : S1024x1024.Idx → EReal) _ = _
  rw [V_main_v5]
  refine Eq.trans (congrArg _ (funext fun a => Fin.ext ?_)) (transposed_apply _ k o)
  match a with
  | ⟨0, _⟩ => show win0_3.index t (0 : Fin 2) * 1024 + 1 * k.val = k.val; omega
  | ⟨1, _⟩ => show win0_3.index t (1 : Fin 2) * 1024 + 1 * o.val = o.val; omega

theorem blk4_apply (c : Dev nD) (t : Fin cfg0.N) (k o : Fin 1024) :
    (iblk m c 4 t : FVec Ideal S1024x1024 .bf16) (ix2 k o)
      = (m ((c : Thread nD τ).loc main_arg4) : S1024x1024.Idx → EReal) (ix2 o k) := by
  obtain ⟨-, -, -, -, -, -, -, -, e0, e1, -⟩ := idx_facts t
  unfold iblk
  rw [View.read_apply]
  show (V m c main_v7 : S1024x1024.Idx → EReal) _ = _
  rw [V_main_v7]
  refine Eq.trans (congrArg _ (funext fun a => Fin.ext ?_)) (transposed_apply _ k o)
  match a with
  | ⟨0, _⟩ => show win0_4.index t (0 : Fin 2) * 1024 + 1 * k.val = k.val; omega
  | ⟨1, _⟩ => show win0_4.index t (1 : Fin 2) * 1024 + 1 * o.val = o.val; omega

/-- The bias window's block is the bias vector as one row. -/
theorem blk5_apply (c : Dev nD) (t : Fin cfg0.N) (q : Fin 4096) :
    (iblk m c 5 t : FVec Ideal S1x4096 .f32) (ix2 (0 : Fin 1) q)
      = (m ((c : Thread nD τ).loc main_arg5) : S4096.Idx → EReal) (ix1 q) := by
  obtain ⟨-, -, -, -, -, -, -, -, -, -, e0, e1, -⟩ := idx_facts t
  unfold iblk
  rw [View.read_apply]
  show (V m c main_v8 : S1x4096.Idx → EReal) _ = _
  rw [V_main_v8]
  refine Eq.trans (congrArg _ (funext fun a => Fin.ext ?_)) (biasRow_apply _ q)
  match a with
  | ⟨0, _⟩ => show win0_5.index t (0 : Fin 2) * 1 + 1 * 0 = 0; omega
  | ⟨1, _⟩ => show win0_5.index t (1 : Fin 2) * 4096 + 1 * q.val = q.val; omega

/-! ## What a point writes back -/

/-- The body's result at point t, at row p and column 1024·a + o, is the layer of the argument arrays at row
    256·t + p and that column. -/
theorem out_apply (c : Dev nD) (t : Fin cfg0.N) (p : Fin 256) (a : Fin 4) (o : Fin 1024) :
    out0_6 (iblk m c 0 t) (iblk m c 1 t) (iblk m c 2 t) (iblk m c 3 t) (iblk m c 4 t) (iblk m c 5 t) (ix2 p (col a o))
      = layer m c (ix2 (row t p) (col a o)) := by
  unfold out0_6
  rw [View.canon_unit_zero hz]
  simp only [View.ld_unit_zero (S := S256x4096) hz, View.ld_unit_zero (S := S1024x1024) hz,
    View.ld_unit_zero (S := S1x4096) hz]
  refine (Cert.KernelIdeal.Body.payload_apply (iblk m c 0 t) (iblk m c 1 t) (iblk m c 2 t) (iblk m c 3 t) (iblk m c 4 t)
    (m ((c : Thread nD τ).loc main_arg1)) (m ((c : Thread nD τ).loc main_arg2)) (m ((c : Thread nD τ).loc main_arg3))
    (m ((c : Thread nD τ).loc main_arg4)) (iblk m c 5 t) (blk1_apply m c t) (blk2_apply m c t) (blk3_apply m c t)
    (blk4_apply m c t) p a o).trans ?_
  rw [layer, quat_apply, blk5_apply,
    comp_row (m ((c : Thread nD τ).loc main_arg0) : S8192x4096.Idx → EReal) (iblk m c 0 t : FVec Ideal S256x4096 .f32)
      _ _ _ _ p (row t p) o (blk0_apply m c t p)]

/-- WHAT POINT t WRITES BACK is block t of the layer of the argument arrays. -/
theorem flushed_eq (c : Dev nD) (t : Fin cfg0.N) :
    (dats m 0 c).flushed 6 t = ((cfg0.win 6).blk t).view.read (Elt Ideal) (layer m c) := by
  obtain ⟨-, -, -, -, -, -, -, -, -, -, -, -, e0, e1⟩ := idx_facts t
  rw [flushed6]
  funext y
  obtain ⟨p, q, rfl⟩ : ∃ (p : Fin 256) (q : Fin 4096), y = ix2 p q := ⟨y 0, y 1, eq_ix2 y⟩
  obtain ⟨a, o, rfl⟩ := exists_col q
  rw [View.read_apply]
  show out0_6 (iblk m c 0 t) (iblk m c 1 t) (iblk m c 2 t) (iblk m c 3 t) (iblk m c 4 t) (iblk m c 5 t) (ix2 p (col a o))
    = layer m c (((cfg0.win 6).blk t).view.emb (ix2 p (col a o)))
  rw [out_apply]
  refine congrArg _ (funext fun b => Fin.ext ?_)
  match b with
  | ⟨0, _⟩ => show 256 * t.val + p.val = win0_6.index t (0 : Fin 2) * 256 + 1 * p.val; omega
  | ⟨1, _⟩ => show (col a o).val = win0_6.index t (1 : Fin 2) * 4096 + 1 * (col a o).val; omega

/-! ## The row blocks tile the result -/

/-- An index of the result is in point t's block iff each coordinate is in the block's range on its axis. -/
theorem mem_blk (t : Fin cfg0.N) (i : S8192x4096.Idx) :
    i ∈ ((cfg0.win 6).blk t).view.set ↔ ∀ a : Fin 2, win0_6.index t a * S256x4096.size a ≤ (i a).val
      ∧ (i a).val < win0_6.index t a * S256x4096.size a + S256x4096.size a := by
  show i ∈ ((View.whole main_v9).slice (win0_6.rect t)).set ↔ _
  rw [View.set_slice_whole, Rect.mem_set_unit]
  exact Iff.rfl

/-- Row r of the result lies in the block of point r / 256. -/
theorem cover (i : S8192x4096.Idx) :
    ∃ t : Fin cfg0.N, (cfg0.win 6).flush t = true ∧ i ∈ ((cfg0.win 6).blk t).view.set := by
  have h0 : (i 0).val < 8192 := idx2_lt0 i
  have h1 : (i 1).val < 4096 := idx2_lt1 i
  have hN : (i 0).val / 256 < cfg0.N := by rw [show cfg0.N = 32 from N_0]; omega
  refine ⟨⟨(i 0).val / 256, hN⟩, flush0_6 _, ?_⟩
  obtain ⟨-, -, -, -, -, -, -, -, -, -, -, -, e0, e1⟩ := idx_facts ⟨(i 0).val / 256, hN⟩
  rw [mem_blk]
  intro a
  match a with
  | ⟨0, _⟩ =>
    show win0_6.index ⟨(i 0).val / 256, hN⟩ (0 : Fin 2) * 256 ≤ (i 0).val
      ∧ (i 0).val < win0_6.index ⟨(i 0).val / 256, hN⟩ (0 : Fin 2) * 256 + 256
    rw [e0]
    show (i 0).val / 256 * 256 ≤ (i 0).val ∧ (i 0).val < (i 0).val / 256 * 256 + 256
    omega
  | ⟨1, _⟩ =>
    show win0_6.index ⟨(i 0).val / 256, hN⟩ (1 : Fin 2) * 4096 ≤ (i 1).val
      ∧ (i 1).val < win0_6.index ⟨(i 0).val / 256, hN⟩ (1 : Fin 2) * 4096 + 4096
    rw [e1]
    omega

/-- THE RESULT ARRAY after the run is the layer of the argument arrays. -/
theorem final (c : Dev nD) : (dats m 0 c).arrAt 6 cfg0.N = layer m c :=
  (dats m 0 c).arrAt_eq_of_cover 6 (layer m c) (fun t _ => flushed_eq m c t) (cover)

/-- The run, read: the result array at the layer of the arguments, the arguments unchanged. -/
theorem run : θ_run defs (onTc (τ := τ) (main (F := Ideal))) ⟨m, fun _ => 0, ρ⟩ fun r => ∀ c : Dev nD,
      r.2.mem ((c : Thread nD τ).loc main_v9) = layer m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (run_blocks m ρ)

end Cert.KernelIdeal.Layer

end
-- ==== Proof.ReferenceValue.lean ====
/-
  The reference's result is the Hamilton-product layer of its arguments, for finite arguments.

  The reference lays the sixteen signed weight matrices out as one 4096×4096 matrix — four rows of four blocks, each row
  joined along the columns and the four rows joined along the rows —, multiplies the input by its transpose in one
  product contracted over the 4096 columns, and adds the bias broadcast to every row. Read at an index, block (a, c) of
  the matrix is the weight matrix the Hamilton product puts there, negated or not; so the product's entry at row b and
  column 1024·a + o is the row b of the input against the four blocks of row 1024·a + o, which is component a of the
  layer once each negation is taken out of its 1024-wide sum — the step that asks the entries to be reals.
-/
import proofs.«137164_j60584808677734_1_alg».proof.Proof.Gen.ReferenceIdeal.Read
import proofs.«137164_j60584808677734_1_alg».proof.Proof.Hamilton
import Idealize.ShloMosaic.Lib.ValueIdx
import Idealize.ShloMosaic.Lib.Pipeline.Value
import Idealize.ShloMosaic.PureOps.Ideal.Laws

open scoped BigOperators

noncomputable section

namespace Cert.ReferenceIdeal.Layer

open Cert.ReferenceIdeal Cert.ReferenceIdeal.Read Idealize.ShloMosaic Idealize.ShloMosaic.ValueIdx Cert.Hamilton
open Cert.Lib.IdealSums

/-- Block (a, c) of the reference's 4096×4096 matrix, at (o, k): the Hamilton product's signed weight entry. -/
theorem blocks_apply (x1 x2 x3 x4 : FVec Ideal S1024x1024 .f32) (a : Fin 4) (o : Fin 1024) (c : Fin 4) (k : Fin 1024) :
    val_main_v14 (F := Ideal) x1 x2 x3 x4 (ix2 (col a o) (col c k)) = block x1 x2 x3 x4 a c (ix2 o k) := by
  unfold val_main_v14
  refine (concat4_rows _ _ _ _ _ a o (col c k)).trans ?_
  fin_cases a
  · show val_main_v7 (F := Ideal) x1 x2 x3 x4 (ix2 o (col c k)) = _
    unfold val_main_v7
    refine (concat4_cols _ _ _ _ _ o c k).trans ?_
    fin_cases c <;> rfl
  · show val_main_v9 (F := Ideal) x1 x2 x3 x4 (ix2 o (col c k)) = _
    unfold val_main_v9
    refine (concat4_cols _ _ _ _ _ o c k).trans ?_
    fin_cases c <;> rfl
  · show val_main_v11 (F := Ideal) x1 x2 x3 x4 (ix2 o (col c k)) = _
    unfold val_main_v11
    refine (concat4_cols _ _ _ _ _ o c k).trans ?_
    fin_cases c <;> rfl
  · show val_main_v13 (F := Ideal) x1 x2 x3 x4 (ix2 o (col c k)) = _
    unfold val_main_v13
    refine (concat4_cols _ _ _ _ _ o c k).trans ?_
    fin_cases c <;> rfl

/-- The reference's result, as a function of its arguments, is the layer, the input and the weights holding reals. -/
theorem result_eq (x0 : FVec Ideal S8192x4096 .f32) (x1 x2 x3 x4 : FVec Ideal S1024x1024 .f32) (x5 : FVec Ideal S4096 .f32)
    (h0 : ∀ i, IsReal (x0 i)) (h1 : ∀ i, IsReal (x1 i)) (h2 : ∀ i, IsReal (x2 i)) (h3 : ∀ i, IsReal (x3 i))
    (h4 : ∀ i, IsReal (x4 i)) :
    val_main_v18 (F := Ideal) x0 x1 x2 x3 x4 x5 = quat (r := 8192) x0 x1 x2 x3 x4 x5 := by
  funext i
  obtain ⟨b, q, rfl⟩ : ∃ (b : Fin 8192) (q : Fin 4096), i = ix2 b q := ⟨i 0, i 1, eq_ix2 i⟩
  have el : ∀ k : Fin 4096, lidx_main_v15 (ix2 b q) k = ix2 b k := fun k => funext fun a => Fin.ext (by
    match a with
    | ⟨0, _⟩ => rfl
    | ⟨1, _⟩ => rfl)
  have er : ∀ k : Fin 4096, ridx_main_v15 (ix2 b q) k = ix2 q k := fun k => funext fun a => Fin.ext (by
    match a with
    | ⟨0, _⟩ => rfl
    | ⟨1, _⟩ => rfl)
  have eb : idx_main_v16 (idx_main_v17 (ix2 b q)) = ix1 q := funext fun a => Fin.ext (by
    match a with
    | ⟨0, _⟩ => rfl)
  rw [val_main_v18_apply, val_main_v15_apply, val_main_v17_apply, val_main_v16_apply]
  simp only [el, er, eb]
  exact product_eq_quat x0 x1 x2 x3 x4 x5 (val_main_v14 (F := Ideal) x1 x2 x3 x4) (blocks_apply x1 x2 x3 x4)
    h0 h1 h2 h3 h4 b q

end Cert.ReferenceIdeal.Layer

end
-- ==== Proof.FiniteInputs.lean ====
/-
  The input check, read back: every float argument holds finite numbers, so every entry of every argument is a real.

  The check compares the absolute value of each entry with +∞ and takes the conjunction over all entries of all six
  arguments. A conjunction that is 1 had a 1 at every entry, and |x| < +∞ says that the extended real x is neither
  infinity.
-/
import proofs.«137164_j60584808677734_1_alg».proof.Pre_finite_inputs
import proofs.«137164_j60584808677734_1_alg».proof.Proof.Gen.Pre_finite_inputs
import proofs.«137164_j60584808677734_1_alg».proof.Proof.LibIdealSums
import Idealize.ShloMosaic.Lib.ReduceAll
import Idealize.ShloMosaic.Lib.ValueIdx

noncomputable section

namespace Cert.Pre_finite_inputs.Reals

open Idealize.ShloMosaic Cert.Pre_finite_inputs Cert.Pre_finite_inputs.Facts Cert.Lib.IdealSums

/-- The scalar shape has one index. -/
instance : Subsingleton S_.Idx := ⟨fun _ _ => funext fun d => d.elim0⟩

/-- One argument's share of the check: if "all entries have absolute value below +∞" came out 1, every entry is a real. -/
theorem entries_real {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
        (cmpf .olt (Host.absf x) (broadcastInDim s ![] hb (constant (F := Ideal) S_ .f32 0x7F800000#32)))
        (constantI S_ 1 1#1) hr hu ValueIdx.ix0 = 1#1)
    (i : s.Idx) : IsReal (x i) :=
  isReal_of_cmpf_abs (x i) (Host.reduce_andi_all _ _ hr hu ValueIdx.ix0 e i)

/-- The whole check: all six arguments hold reals. -/
theorem all_real (x0 : FVec Ideal S8192x4096 .f32) (x1 x2 x3 x4 : FVec Ideal S1024x1024 .f32) (x5 : FVec Ideal S4096 .f32)
    (h : fn (F := Ideal) x0 x1 x2 x3 x4 x5 = fun _ => 1#1) :
    (∀ i, IsReal (x0 i)) ∧ (∀ i, IsReal (x1 i)) ∧ (∀ i, IsReal (x2 i)) ∧ (∀ i, IsReal (x3 i)) ∧ (∀ i, IsReal (x4 i))
      ∧ (∀ i, IsReal (x5 i)) := by
  have h0 := congrFun h ValueIdx.ix0
  dsimp only [fn, fn_part1] at h0
  obtain ⟨h1, e5⟩ := IntOp.andi_eq_one.1 h0
  obtain ⟨h2, e4⟩ := IntOp.andi_eq_one.1 h1
  obtain ⟨h3, e3⟩ := IntOp.andi_eq_one.1 h2
  obtain ⟨h4, e2⟩ := IntOp.andi_eq_one.1 h3
  obtain ⟨e0, e1⟩ := IntOp.andi_eq_one.1 h4
  exact ⟨entries_real x0 _ _ _ e0, entries_real x1 _ _ _ e1, entries_real x2 _ _ _ e2, entries_real x3 _ _ _ e3,
    entries_real x4 _ _ _ e4, entries_real x5 _ _ _ e5⟩

end Cert.Pre_finite_inputs.Reals

end
-- ==== Proof.lean ====
/-
  A quaternion dense layer: 8192 rows of four 1024-wide quaternion components against a quaternion weight (four
  1024×1024 matrices) and a bias, two ways.

  The kernel walks the rows in 32 blocks of 256. For each block it forms the sixteen products component × weight matrix
  and combines them four by four with the Hamilton product's signs, r = xr·Wr − xi·Wi − xj·Wj − xk·Wk and so on, lays the
  four results side by side and adds the bias row. The reference writes the same sixteen signed matrices into one
  4096×4096 matrix and multiplies the whole input by it once. On the extended reals a change of float format is the
  identity and a product into a zero accumulator is a plain sum, so both results are, at row b and column 1024·a + o,
  sums over the 4096 input columns of row b regrouped in two ways: the kernel sums each component's 1024 columns and then
  subtracts, the reference negates the weights' entries and then sums everything. A sum of extended reals may be
  regrouped freely, and a product with a negated factor is the negated product; taking a negation out of a sum is valid
  for reals, not for infinities of both signs, and this is where the claim uses that the inputs are finite.

  The kernel's result array as one function of the arguments (KernelValue, over the body's arithmetic in KernelBody) and
  the reference's (ReferenceValue) are both the function `Cert.Hamilton.quat` (Hamilton); FiniteInputs reads the input
  check back into "every entry is a real". The three frames are the generated ones; the idealized kernel is the printed
  kernel's own text read on the extended reals, no operation of it rewritten, so that claim has nothing to prove.
-/
import proofs.«137164_j60584808677734_1_alg».proof.Defs
import proofs.«137164_j60584808677734_1_alg».proof.Proof.Gen.Kernel
import proofs.«137164_j60584808677734_1_alg».proof.Proof.Gen.Kernel.Skeleton
import proofs.«137164_j60584808677734_1_alg».proof.Proof.Gen.Kernel.Launch
import proofs.«137164_j60584808677734_1_alg».proof.Proof.Gen.Kernel.Points
import proofs.«137164_j60584808677734_1_alg».proof.Proof.Gen.Kernel.Frame
import proofs.«137164_j60584808677734_1_alg».proof.Proof.Gen.KernelIdeal
import proofs.«137164_j60584808677734_1_alg».proof.Proof.Gen.KernelIdeal.Skeleton
import proofs.«137164_j60584808677734_1_alg».proof.Proof.Gen.KernelIdeal.Launch
import proofs.«137164_j60584808677734_1_alg».proof.Proof.Gen.KernelIdeal.Points
import proofs.«137164_j60584808677734_1_alg».proof.Proof.Gen.KernelIdeal.Frame
import proofs.«137164_j60584808677734_1_alg».proof.Proof.Gen.ReferenceIdeal
import proofs.«137164_j60584808677734_1_alg».proof.Proof.Gen.Pre_finite_inputs
import proofs.«137164_j60584808677734_1_alg».proof.Proof.Gen.KernelIdeal.Value
import proofs.«137164_j60584808677734_1_alg».proof.Proof.Gen.ReferenceIdeal.Run
import proofs.«137164_j60584808677734_1_alg».proof.Proof.Gen.ReferenceIdeal.Read
import proofs.«137164_j60584808677734_1_alg».proof.Proof.KernelValue
import proofs.«137164_j60584808677734_1_alg».proof.Proof.ReferenceValue
import proofs.«137164_j60584808677734_1_alg».proof.Proof.FiniteInputs
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its arguments unchanged: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- On the extended reals, from finite arguments, the kernel's result array and the reference's are the same
    function of the arguments: the Hamilton-product layer. -/
theorem algebraic : Cert.algebraic_KernelIdeal_ReferenceIdeal := by
  intro m ρ m' ρ' hpre hagree
  refine ⟨fun c => Cert.KernelIdeal.Layer.layer m c, Cert.KernelIdeal.Layer.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  obtain ⟨r0, r1, r2, r3, r4, -⟩ := Cert.Pre_finite_inputs.Reals.all_real _ _ _ _ _ _ (hpre c)
  rw [Cert.ReferenceIdeal.Read.val_main_v18_eq, a0, a1, a2, a3, a4, a5]
  exact Cert.ReferenceIdeal.Layer.result_eq _ _ _ _ _ _ r0 r1 r2 r3 r4

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
